-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x64 : Shape := ⟨2, ![4096, 64]⟩
abbrev S64 : Shape := ⟨1, ![64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x4096 .f32) (main_arg1 : FVec F S4096x64 .f32) (main_arg2 : FVec F S64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x4096 : Shape := ⟨2, ![8192, 4096]⟩
abbrev S4096x64 : Shape := ⟨2, ![4096, 64]⟩
abbrev S64 : Shape := ⟨1, ![64]⟩
abbrev S_ : Shape := ⟨0, ![]⟩
abbrev S1x64 : Shape := ⟨2, ![1, 64]⟩
abbrev S8192x64 : Shape := ⟨2, ![8192, 64]⟩
abbrev S512x4096 : Shape := ⟨2, ![512, 4096]⟩
abbrev S512x64 : Shape := ⟨2, ![512, 64]⟩

abbrev nBuf : Space → Nat
  | .hbm => 12
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x64, .f32⟩
  | .hbm, ⟨2, _⟩ => ⟨S64, .f32⟩
  | .hbm, ⟨3, _⟩ => ⟨S_, .f32⟩
  | .hbm, ⟨4, _⟩ => ⟨S4096x64, .f32⟩
  | .hbm, ⟨5, _⟩ => ⟨S4096x64, .f32⟩
  | .hbm, ⟨6, _⟩ => ⟨S4096x64, .bf16⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S1x64, .f32⟩
  | .hbm, ⟨11, _⟩ => ⟨S8192x64, .f32⟩
  | .local _ .vmem, ⟨0, _⟩ => ⟨S512x4096, .f32⟩
  | .local _ .vmem, ⟨1, _⟩ => ⟨S512x4096, .f32⟩
  | .local _ .vmem, ⟨2, _⟩ => ⟨S4096x64, .bf16⟩
  | .local _ .vmem, ⟨3, _⟩ => ⟨S1x64, .f32⟩
  | .local _ .vmem, ⟨4, _⟩ => ⟨S512x64, .f32⟩
  | .local _ .vmem, ⟨5, _⟩ => ⟨S512x64, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096x64 : S_.BroadcastsInDim S4096x64 (![] : Fin 0 → Fin S4096x64.rank)
  bitsLt_bf16_f32 : FTy.bits .bf16 < FTy.bits .f32
  bcast_S_S64 : S_.BroadcastsInDim S64 (![] : Fin 0 → Fin S64.rank)
  shapeCasts_S64_S1x64 : S64.ShapeCasts S1x64
  inb_S512x4096_S512x4096_0_0 : ∀ a, (![0, 0] : Fin 2 → Nat) a + S512x4096.size a ≤ S512x4096.size a
  h_S512x4096 : 0 < S512x4096.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .bf16 = 32 ∨ (Rect.block (s := S4096x64) S4096x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S8192x64.size a
  hwx0_3 : ∀ i : grid0.Coords, EltTy.bits .f32 = 32 ∨ (Rect.block (s := S8192x64) S512x64.size (cc0_transform_3 i) (hinb0_3 i)).WholeWords (EltTy.packing .f32)

variable [Facts₀]

def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x64 : Shape := ⟨2, ![4096, 64]⟩
abbrev S64 : Shape := ⟨1, ![64]⟩
abbrev S8192x64 : Shape := ⟨2, ![8192, 64]⟩
abbrev S1x64 : Shape := ⟨2, ![1, 64]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x64, .f32⟩
  | .hbm, ⟨2, _⟩ => ⟨S64, .f32⟩
  | .hbm, ⟨3, _⟩ => ⟨S8192x64, .f32⟩
  | .hbm, ⟨4, _⟩ => ⟨S1x64, .f32⟩
  | .hbm, ⟨5, _⟩ => ⟨S8192x64, .f32⟩
  | .hbm, ⟨6, _⟩ => ⟨S8192x64, .f32⟩
  | .hbm, ⟨7, _⟩ => ⟨S_, .f32⟩
  | .hbm, ⟨8, _⟩ => ⟨S8192x64, .f32⟩
  | .hbm, ⟨9, _⟩ => ⟨S8192x64, .f32⟩
  | .hbm, ⟨10, _⟩ => ⟨S8192x64, .f32⟩
  | .hbm, ⟨11, _⟩ => ⟨S8192x64, .f32⟩
  | .hbm, ⟨12, _⟩ => ⟨S_, .f32⟩
  | .hbm, ⟨13, _⟩ => ⟨S8192x64, .f32⟩
  | .hbm, ⟨14, _⟩ => ⟨S8192x64, .f32⟩
  | .hbm, ⟨15, _⟩ => ⟨S_, .f32⟩
  | .hbm, ⟨16, _⟩ => ⟨S8192x64, .f32⟩
  | .hbm, ⟨17, _⟩ => ⟨S8192x64, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  dot_S8192x4096_S4096x64_S8192x64_1_0_0_1_n_n_wf : DotDims.WF S8192x4096 S4096x64 S8192x64 [1] [0] [0] [1] [] []

variable [Facts₀]

def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf

class Facts : Prop extends Facts₀ where

variable [Facts]
-- ==== Proof.Logistic.lean ====
/-
  The scalar law that joins the two programs. One writes the gate as the logistic function of a doubled
  logit, `1 / (1 + exp (-(z / (1/2))))`, the other as `1/2 · tanh z + 1/2`. On the reals these are one function:
  with `a = exp r`, `tanh r = (a - a⁻¹) / (a + a⁻¹)`, so `1/2 · tanh r + 1/2 = a / (a + a⁻¹) = 1 / (1 + a⁻²)`.
  On the extended reals the law also holds at the two infinities, where both sides are the limits: at `+∞` the
  hyperbolic tangent is `1` and `exp (-∞) = 0`, both sides `1`; at `-∞` the tangent is `-1` and `1 / (1 + ∞) = 0`,
  both sides `0`. So no finiteness of the logit is needed.
-/
import Idealize.ShloMosaic.PureOps.Ideal
import Idealize.ShloMosaic.Lib.IdealHost

noncomputable section

namespace Cert.Router

open Idealize.ShloMosaic

/-- The pattern `0x3F000000` denotes the real one half. -/
theorem ofBits_half : Ideal.ofBits .f32 0x3F000000#32 = (((1 : ℝ) / 2 : ℝ) : EReal) := by
  simp [Ideal.ofBits, Ideal.ieee, -EReal.coe_mul]; norm_num

/-- On the reals: half the hyperbolic tangent plus a half is the logistic function of twice the argument. -/
theorem real_half_tanh (r : ℝ) : 1 / 2 * Real.tanh r + 1 / 2 = (1 + Real.exp (-(r * 2)))⁻¹ := by
  have ha : 0 < Real.exp r := Real.exp_pos r
  have h1 : Real.exp (-r) = (Real.exp r)⁻¹ := Real.exp_neg r
  have h2 : Real.exp (-(r * 2)) = (Real.exp r)⁻¹ * (Real.exp r)⁻¹ := by
    rw [show -(r * 2) = -r + -r by ring, Real.exp_add, h1]
  rw [Real.tanh_eq_sinh_div_cosh, Real.sinh_eq, Real.cosh_eq, h2, h1]
  field_simp
  ring

/-- On every extended real `z`: `1/2 · tanh z + 1/2 = 1 / (1 + exp (-(z / (1/2))))`, the constants as the programs
    spell them (the patterns of `0.5` and `1.0`). -/
theorem half_tanh_add_half (z : EReal) :
    Ideal.ofBits .f32 0x3F000000#32 * Ideal.tanh z + Ideal.ofBits .f32 0x3F000000#32
      = Ideal.div (Ideal.ofBits .f32 0x3F800000#32)
          (Ideal.ofBits .f32 0x3F800000#32 + Ideal.exp (-(Ideal.div z (Ideal.ofBits .f32 0x3F000000#32)))) := by
  have hdiv : Ideal.div z (Ideal.ofBits .f32 0x3F000000#32) = z * ((2 : ℝ) : EReal) := by
    rw [ofBits_half, Ideal.div_coe (by norm_num : ((1 : ℝ) / 2) ≠ 0)]
    norm_num
  rw [hdiv, Ideal.ofBits_one_f32]
  show _ = Ideal.logistic (z * ((2 : ℝ) : EReal))
  rw [ofBits_half]
  induction z using EReal.rec with
  | bot =>
    rw [EReal.bot_mul_coe_of_pos (by norm_num : (0 : ℝ) < 2), Ideal.logistic_bot, Ideal.tanh_bot,
      show (-1 : EReal) = ((-1 : ℝ) : EReal) by rw [EReal.coe_neg, EReal.coe_one], ← EReal.coe_mul, ← EReal.coe_add]
    norm_num
  | top =>
    rw [EReal.top_mul_coe_of_pos (by norm_num : (0 : ℝ) < 2), Ideal.logistic_top, Ideal.tanh_top,
      show (1 : EReal) = ((1 : ℝ) : EReal) by norm_cast, ← EReal.coe_mul, ← EReal.coe_add]
    norm_num
  | coe r =>
    rw [← EReal.coe_mul, Ideal.logistic_coe, Ideal.tanh_coe, ← EReal.coe_mul, ← EReal.coe_add, real_half_tanh]

end Cert.Router

end
-- ==== Proof.Gate.lean ====
/-
  The specification: the router's gate as ONE function of the three argument arrays, index by index.
  For a token (row) `r` and a unit (column) `u` the logit is the inner product of the token's 4096 features with the
  unit's column of weights, plus the unit's bias; the gate is `1/2 · tanh (logit) + 1/2`, which is the logistic
  function of twice the logit (Logistic.lean). The constant one half is kept as the pattern both programs spell.
-/
import Idealize.ShloMosaic.PureOps.Ideal
import Idealize.ShloMosaic.Lib.ValueIdx

noncomputable section

namespace Cert.Router

open Idealize.ShloMosaic Idealize.ShloMosaic.ValueIdx

/-- The logit of token `r` at unit `u`: `∑ k, x[r, k] · w[k, u] + b[u]`. -/
def logit (x : (⟨2, ![8192, 4096]⟩ : Shape).Idx → EReal) (w : (⟨2, ![4096, 64]⟩ : Shape).Idx → EReal)
    (b : (⟨1, ![64]⟩ : Shape).Idx → EReal) (r : Fin 8192) (u : Fin 64) : EReal :=
  (∑ k : Fin 4096, x (ix2 r k) * w (ix2 k u)) + b (ix1 u)

/-- The gate array: `1/2 · tanh (logit) + 1/2` at every (token, unit). -/
def gate (x : (⟨2, ![8192, 4096]⟩ : Shape).Idx → EReal) (w : (⟨2, ![4096, 64]⟩ : Shape).Idx → EReal)
    (b : (⟨1, ![64]⟩ : Shape).Idx → EReal) : (⟨2, ![8192, 64]⟩ : Shape).Idx → EReal :=
  fun i => Ideal.ofBits .f32 0x3F000000#32 * Ideal.tanh (logit x w b (i 0) (i 1)) + Ideal.ofBits .f32 0x3F000000#32

theorem gate_apply (x : (⟨2, ![8192, 4096]⟩ : Shape).Idx → EReal) (w : (⟨2, ![4096, 64]⟩ : Shape).Idx → EReal)
    (b : (⟨1, ![64]⟩ : Shape).Idx → EReal) (r : Fin 8192) (u : Fin 64) :
    gate x w b (ix2 r u)
      = Ideal.ofBits .f32 0x3F000000#32 * Ideal.tanh (logit x w b r u) + Ideal.ofBits .f32 0x3F000000#32 := rfl

end Cert.Router

end
-- ==== Proof.RefGate.lean ====
/-
  The reference computes the gate. Its fifteen host operations, read one at a time at an index (token, unit), give
  `1 / (1 + exp (-((∑ k, x[r, k] · w[k, u] + b[u]) / (1/2))))`: the matrix product as a sum over the 4096 features, the
  bias broadcast along the tokens, the quotient by the constant one half, and the logistic function spelt out with
  `exp`. By the scalar law of Logistic.lean that is `1/2 · tanh (logit) + 1/2`, the specification's gate.
-/
import proofs.«165291_g32770600468481_cont_8to1_b_1364_22_alg».proof.Proof.Gen.ReferenceIdeal.Read
import proofs.«165291_g32770600468481_cont_8to1_b_1364_22_alg».proof.Proof.Logistic
import proofs.«165291_g32770600468481_cont_8to1_b_1364_22_alg».proof.Proof.Gate

noncomputable section

namespace Cert.Router

open Idealize.ShloMosaic Idealize.ShloMosaic.ValueIdx Cert.ReferenceIdeal Cert.ReferenceIdeal.Read

/-- The left operand's index of the product at (token, unit) and feature `k` is (token, `k`). -/
theorem lidx_eq (i : S8192x64.Idx) (k : Fin 4096) : lidx_main_v0 i k = ix2 (i 0) k :=
  funext fun a => by match a with | ⟨0, _⟩ => rfl | ⟨1, _⟩ => rfl

/-- The right operand's index is (`k`, unit). -/
theorem ridx_eq (i : S8192x64.Idx) (k : Fin 4096) : ridx_main_v0 i k = ix2 k (i 1) :=
  funext fun a => by match a with | ⟨0, _⟩ => rfl | ⟨1, _⟩ => rfl

/-- The bias, broadcast first to one row and then along the tokens, is read at the unit. -/
theorem bidx_eq (i : S8192x64.Idx) : idx_main_v1 (idx_main_v2 i) = ix1 (i 1) :=
  funext fun a => by match a with | ⟨0, _⟩ => rfl

/-- The reference's result array is the gate of its three arguments. -/
theorem ref_eq_gate (x0 : (⟨S8192x4096, .f32⟩ : BufTy).Contents (Elt Ideal)) (x1 : (⟨S4096x64, .f32⟩ : BufTy).Contents (Elt Ideal))
    (x2 : (⟨S64, .f32⟩ : BufTy).Contents (Elt Ideal)) :
    val_main_v11 (F := Ideal) x0 x1 x2 = gate x0 x1 x2 := by
  funext i
  rw [val_main_v11_apply, val_main_v10_apply, val_main_cst_1_apply, val_main_v9_apply, val_main_v8_apply,
    val_main_cst_0_apply, val_main_v7_apply, val_main_v6_apply, val_main_v5_apply, val_main_v4_apply,
    val_main_cst_apply, val_main_v3_apply, val_main_v2_apply, val_main_v1_apply, val_main_v0_apply]
  simp only [lidx_eq, ridx_eq, bidx_eq, Ideal.ofBits_def, Ideal.hostDivf_def, Ideal.hostUnary_exp_def, Ideal.hostNegf_def,
    Ideal.negf_def, Ideal.addf_def]
  exact (half_tanh_add_half _).symm

end Cert.Router

end
-- ==== Proof.Staged.lean ====
/-
  What the kernel body's three input blocks hold, as entries of the argument arrays.
  Before the region the host multiplies the weights and the bias by the constant one (the temperature scale
  `0.5 / (0.5 + 1e-8)`, which rounds to one), narrows the weights' float format and gives the bias a leading unit axis;
  on the extended reals a product with one is the factor itself and a change of format is the identity, so the region
  finds the weights and the bias themselves. Grid point `t` (of 16) stages rows `512 t … 512 t + 511` of the
  activations, and the whole weight and bias arrays at every point.
-/
import proofs.«165291_g32770600468481_cont_8to1_b_1364_22_alg».proof.Proof.Gen.KernelIdeal.Value
import Idealize.ShloMosaic.Lib.StableHlo.Run
import Idealize.ShloMosaic.Lib.IdealHost
import Idealize.ShloMosaic.Lib.ValueLayout
import Idealize.ShloMosaic.Lib.Tactic

noncomputable section

namespace Cert.Router

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The windows' block indices at every grid point: the activations and the result move with the point along the
    rows; the weights and the bias stay at block zero. Decided over the 16 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An array times the broadcast constant one is the array, entry by entry (`x · 1 = x` on every extended real). -/
theorem times_one {s : Shape} (A : FVec Ideal s .f32) (h : (⟨0, ![]⟩ : Shape).BroadcastsInDim s ![]) (j : s.Idx) :
    mulf A (broadcastInDim s ![] h (constant (F := Ideal) ⟨0, ![]⟩ .f32 0x3F800000#32)) j = A j := by
  rw [mulf_apply, broadcastInDim_scalar_apply, constant_apply, Ideal.ofBits_one_f32, mul_one]

/-- The weight buffer as the region finds it: the weights times the broadcast constant one, format narrowed. -/
theorem V_weights (c : Dev nD) :
    (V m c main_v2 : S4096x64.Idx → EReal)
      = truncf .bf16 (mulf (m ((c : Thread nD τ).loc main_arg1))
          (broadcastInDim S4096x64 ![] bcast_S_S4096x64 (constant (F := Ideal) S_ .f32 0x3F800000#32))) bitsLt_bf16_f32 := by
  dsimp only [Gen.V, Gen.hostOps0]; after_results

/-- The bias buffer as the region finds it: the bias times the broadcast constant one, cast to one row. -/
theorem V_bias (c : Dev nD) :
    (V m c main_v5 : S1x64.Idx → EReal)
      = shapeCast S1x64 (mulf (m ((c : Thread nD τ).loc main_arg2))
          (broadcastInDim S64 ![] bcast_S_S64 (constant (F := Ideal) S_ .f32 0x3F800000#32))) shapeCasts_S64_S1x64 := by
  dsimp only [Gen.V, Gen.hostOps0]; after_results; rfl

/-- So the region finds the weights themselves, -/
theorem V_weights_apply (c : Dev nD) (k : Fin 4096) (q : Fin 64) :
    (V m c main_v2 : S4096x64.Idx → EReal) (ix2 k q) = (m ((c : Thread nD τ).loc main_arg1) : S4096x64.Idx → EReal) (ix2 k q) := by
  rw [V_weights]
  exact times_one _ bcast_S_S4096x64 (ix2 k q)

/-- and the bias itself, as one row. -/
theorem V_bias_apply (c : Dev nD) (q : Fin 64) :
    (V m c main_v5 : S1x64.Idx → EReal) (ix2 (0 : Fin 1) q) = (m ((c : Thread nD τ).loc main_arg2) : S64.Idx → EReal) (ix1 q) := by
  rw [V_bias, shapeCast_a_1a_apply]
  exact times_one _ bcast_S_S64 (ix1 q)

/-- The activations' block at point `t` is rows `512 t … 512 t + 511` of the argument. -/
theorem xblk_apply (c : Dev nD) (t : Fin cfg0.N) (p : Fin 512) (k : Fin 4096) (hr : t.val * 512 + p.val < 8192) :
    (iblk m c 0 t : Vec Ideal S512x4096 .f32) (ix2 p k)
      = (m ((c : Thread nD τ).loc main_arg0) : S8192x4096.Idx → EReal) (ix2 ⟨t.val * 512 + p.val, hr⟩ k) := by
  obtain ⟨e0, e1, -⟩ := idx_facts t
  unfold iblk
  rw [View.read_apply]
  show V m c main_arg0 _ = _
  rw [V_main_arg0]
  refine congrArg (m ((c : Thread nD τ).loc main_arg0) : S8192x4096.Idx → EReal) (funext fun a => Fin.ext ?_)
  match a with
  | ⟨0, _⟩ => show win0_0.index t (0 : Fin 2) * 512 + 1 * p.val = t.val * 512 + p.val; rw [e0]; omega
  | ⟨1, _⟩ => show win0_0.index t (1 : Fin 2) * 4096 + 1 * k.val = k.val; rw [e1]; omega

/-- The weights' block at every point is the whole weight array. -/
theorem wblk_apply (c : Dev nD) (t : Fin cfg0.N) (k : Fin 4096) (q : Fin 64) :
    (iblk m c 1 t : Vec Ideal S4096x64 .bf16) (ix2 k q)
      = (m ((c : Thread nD τ).loc main_arg1) : S4096x64.Idx → EReal) (ix2 k q) := by
  obtain ⟨-, -, e0, e1, -⟩ := idx_facts t
  rw [← V_weights_apply m c k q]
  unfold iblk
  rw [View.read_apply]
  show V m c main_v2 _ = _
  refine congrArg (V m c main_v2 : S4096x64.Idx → EReal) (funext fun a => Fin.ext ?_)
  match a with
  | ⟨0, _⟩ => show win0_1.index t (0 : Fin 2) * 4096 + 1 * k.val = k.val; rw [e0]; omega
  | ⟨1, _⟩ => show win0_1.index t (1 : Fin 2) * 64 + 1 * q.val = q.val; rw [e1]; omega

/-- The bias's block at every point is the whole one-row bias. -/
theorem bblk_apply (c : Dev nD) (t : Fin cfg0.N) (q : Fin 64) :
    (iblk m c 2 t : Vec Ideal S1x64 .f32) (ix2 (0 : Fin 1) q)
      = (m ((c : Thread nD τ).loc main_arg2) : S64.Idx → EReal) (ix1 q) := by
  obtain ⟨-, -, -, -, e0, e1, -⟩ := idx_facts t
  rw [← V_bias_apply m c q]
  unfold iblk
  rw [View.read_apply]
  show V m c main_v5 _ = _
  refine congrArg (V m c main_v5 : S1x64.Idx → EReal) (funext fun a => Fin.ext ?_)
  match a with
  | ⟨0, _⟩ => show win0_2.index t (0 : Fin 2) * 1 + 1 * 0 = 0; rw [e0]
  | ⟨1, _⟩ => show win0_2.index t (1 : Fin 2) * 64 + 1 * q.val = q.val; rw [e1]; omega

end Cert.Router

end
-- ==== Proof.BodyGate.lean ====
/-
  The kernel body computes the gate of its blocks. At a row `p` of the 512-row block and a unit `q`, the one store's
  value is `1/2 · tanh (∑ k, x[p, k] · w[k, q] + b[0, q]) + 1/2`: the matrix unit's product into a zero accumulator is
  the plain sum over the 4096 features (the narrowing of `x` to the shorter float format is the identity on the
  extended reals), and the one-row bias block is broadcast along the rows.
-/
import proofs.«165291_g32770600468481_cont_8to1_b_1364_22_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Router

open Idealize.ShloMosaic Idealize.ShloMosaic.ValueIdx Cert.KernelIdeal Cert.KernelIdeal.Gen

/-- The product's operand indices at an output index and a contraction index, coordinate by coordinate: the left
    operand is read at (the output's row, the contraction index), -/
theorem body_lhs_0 (i : S512x64.Idx) (c : dot_S512x4096_S4096x64_S512x64_1_0_0_1_n_n.contr.Idx) :
    (dot_S512x4096_S4096x64_S512x64_1_0_0_1_n_n.lhsIdx i c 0).val = (i 0).val := by
  unfold DotDims.lhsIdx
  rw [dif_neg (show ¬(0 : Fin S512x4096.rank) ∈ dot_S512x4096_S4096x64_S512x64_1_0_0_1_n_n.lhsBatch by decide),
    dif_pos (show (0 : Fin S512x4096.rank) ∈ dot_S512x4096_S4096x64_S512x64_1_0_0_1_n_n.lhsNonContracting by decide)]
  rfl
theorem body_lhs_1 (i : S512x64.Idx) (c : dot_S512x4096_S4096x64_S512x64_1_0_0_1_n_n.contr.Idx) :
    (dot_S512x4096_S4096x64_S512x64_1_0_0_1_n_n.lhsIdx i c 1).val = (c ⟨0, by decide⟩).val :=
  dot_S512x4096_S4096x64_S512x64_1_0_0_1_n_n.lhsIdx_val_of_single rfl i c
/-- and the right operand at (the contraction index, the output's column). -/
theorem body_rhs_0 (i : S512x64.Idx) (c : dot_S512x4096_S4096x64_S512x64_1_0_0_1_n_n.contr.Idx) :
    (dot_S512x4096_S4096x64_S512x64_1_0_0_1_n_n.rhsIdx i c 0).val = (c ⟨0, by decide⟩).val :=
  dot_S512x4096_S4096x64_S512x64_1_0_0_1_n_n.rhsIdx_val_of_single rfl i c
theorem body_rhs_1 (i : S512x64.Idx) (c : dot_S512x4096_S4096x64_S512x64_1_0_0_1_n_n.contr.Idx) :
    (dot_S512x4096_S4096x64_S512x64_1_0_0_1_n_n.rhsIdx i c 1).val = (i 1).val := by
  unfold DotDims.rhsIdx
  rw [dif_neg (show ¬(1 : Fin S4096x64.rank) ∈ dot_S512x4096_S4096x64_S512x64_1_0_0_1_n_n.rhsBatch by decide),
    dif_pos (show (1 : Fin S4096x64.rank) ∈ dot_S512x4096_S4096x64_S512x64_1_0_0_1_n_n.rhsNonContracting by decide)]
  rfl

/-- The body's matrix product into a zero accumulator, at (row, unit), is the sum over the features. -/
theorem body_matmul_apply (a : FVec Ideal S512x4096 .bf16) (b : FVec Ideal S4096x64 .bf16) (p : Fin 512) (q : Fin 64) :
    matmul (F := Ideal) dot_S512x4096_S4096x64_S512x64_1_0_0_1_n_n none a b (constant S512x64 .f32 0x00000000#32) (ix2 p q)
      = ∑ k : Fin 4096, a (ix2 p k) * b (ix2 k q) := by
  refine (Ideal.matmul_constant_zero_apply dot_S512x4096_S4096x64_S512x64_1_0_0_1_n_n none a b (ix2 p q)).trans ?_
  rw [← Equiv.sum_comp (contrEquiv1 dot_S512x4096_S4096x64_S512x64_1_0_0_1_n_n 4096 rfl rfl).symm]
  refine Finset.sum_congr rfl fun k _ => ?_
  have hk := contrEquiv1_symm_val dot_S512x4096_S4096x64_S512x64_1_0_0_1_n_n 4096 rfl rfl k
  have el : dot_S512x4096_S4096x64_S512x64_1_0_0_1_n_n.lhsIdx (ix2 p q)
      ((contrEquiv1 dot_S512x4096_S4096x64_S512x64_1_0_0_1_n_n 4096 rfl rfl).symm k) = ix2 p k :=
    funext fun ax => Fin.ext (by
      match ax with
      | ⟨0, _⟩ => exact body_lhs_0 _ _
      | ⟨1, _⟩ => exact (body_lhs_1 _ _).trans hk)
  have er : dot_S512x4096_S4096x64_S512x64_1_0_0_1_n_n.rhsIdx (ix2 p q)
      ((contrEquiv1 dot_S512x4096_S4096x64_S512x64_1_0_0_1_n_n 4096 rfl rfl).symm k) = ix2 k q :=
    funext fun ax => Fin.ext (by
      match ax with
      | ⟨0, _⟩ => exact (body_rhs_0 _ _).trans hk
      | ⟨1, _⟩ => exact body_rhs_1 _ _)
  rw [el, er]

/-- The body's one store, at (row, unit): half the hyperbolic tangent of the block's logit, plus a half. -/
theorem body_apply (v0 : Vec Ideal S512x4096 .f32) (v2 : Vec Ideal S4096x64 .bf16) (v5 : Vec Ideal S1x64 .f32)
    (p : Fin 512) (q : Fin 64) :
    k0_pay1 (F := Ideal) v0 v2 v5 (ix2 p q)
      = Ideal.ofBits .f32 0x3F000000#32
          * Ideal.tanh ((∑ k : Fin 4096, v0 (ix2 p k) * v2 (ix2 k q)) + v5 (ix2 (0 : Fin 1) q))
        + Ideal.ofBits .f32 0x3F000000#32 := by
  unfold k0_pay1
  show Ideal.ofBits .f32 0x3F000000#32
      * Ideal.tanh (matmul (F := Ideal) dot_S512x4096_S4096x64_S512x64_1_0_0_1_n_n none (truncf .bf16 v0 bitsLt_bf16_f32)
            (shapeCast S4096x64 v2 shapeCasts_S4096x64_S4096x64) (constant S512x64 .f32 0x00000000#32) (ix2 p q)
          + broadcastTo S512x64 (shapeCast S1x64 v5 shapeCasts_S1x64_S1x64) broadcasts_S1x64_S512x64 (ix2 p q))
      + Ideal.ofBits .f32 0x3F000000#32 = _
  rw [body_matmul_apply, shapeCast_self, shapeCast_self, broadcastTo_1b_ab_apply]
  rfl

end Cert.Router

end
-- ==== Proof.Rows.lean ====
/-
  From blocks to the whole array. Grid point `t` writes back the 512-row block `t` of the result; by BodyGate.lean
  and Staged.lean that block is the gate of rows `512 t … 512 t + 511` of the activations with the whole weights and
  bias, that is, block `t` of the specification's gate array. The sixteen blocks tile the 8192 rows (row `r` lies in
  block `r / 512`), so after the run the result array IS the gate array of the three arguments.
-/
import proofs.«165291_g32770600468481_cont_8to1_b_1364_22_alg».proof.Proof.Staged
import proofs.«165291_g32770600468481_cont_8to1_b_1364_22_alg».proof.Proof.BodyGate
import proofs.«165291_g32770600468481_cont_8to1_b_1364_22_alg».proof.Proof.Gate
import Idealize.ShloMosaic.Lib.Pipeline.Value

noncomputable section

namespace Cert.Router

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The gate array of core `c`'s three argument arrays. -/
abbrev result (c : Dev nD) : Buf (Elt Ideal) ((c : Thread nD τ).loc main_v6) :=
  gate (m ((c : Thread nD τ).loc main_arg0)) (m ((c : Thread nD τ).loc main_arg1)) (m ((c : Thread nD τ).loc main_arg2))

/-- A body whose activation block is rows `512 n …` of `X`, whose weight block is `W` and whose bias block is `B` as
    one row, stores the gate of `X`, `W`, `B` at those rows. -/
theorem body_eq_gate (X : (⟨2, ![8192, 4096]⟩ : Shape).Idx → EReal) (W : (⟨2, ![4096, 64]⟩ : Shape).Idx → EReal)
    (B : (⟨1, ![64]⟩ : Shape).Idx → EReal)
    (x0 : Vec Ideal S512x4096 .f32) (x1 : Vec Ideal S4096x64 .bf16) (x2 : Vec Ideal S1x64 .f32) (n : Nat)
    (h0 : ∀ (p : Fin 512) (k : Fin 4096) (hr : n * 512 + p.val < 8192), x0 (ix2 p k) = X (ix2 ⟨n * 512 + p.val, hr⟩ k))
    (h1 : ∀ (k : Fin 4096) (q : Fin 64), x1 (ix2 k q) = W (ix2 k q))
    (h2 : ∀ q : Fin 64, x2 (ix2 (0 : Fin 1) q) = B (ix1 q))
    (j : S512x64.Idx) (hr : n * 512 + (j 0).val < 8192) :
    k0_pay1 (F := Ideal) x0 x1 x2 j = gate X W B (ix2 ⟨n * 512 + (j 0).val, hr⟩ (j 1)) := by
  obtain ⟨p, q, rfl⟩ : ∃ (p : Fin 512) (q : Fin 64), j = ix2 p q := ⟨j 0, j 1, eq_ix2 j⟩
  rw [body_apply, gate_apply]
  unfold logit
  simp only [fun k => h0 p k hr, h1, h2]

/-- What point `t` writes back is block `t` of the gate array. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero hz]
  simp only [View.ld_unit_zero (S := S512x4096) hz, View.ld_unit_zero (S := S4096x64) hz, View.ld_unit_zero (S := S1x64) hz]
  obtain ⟨-, -, -, -, -, -, e0, e1⟩ := idx_facts t
  have hN : t.val < 16 := lt_of_lt_of_eq t.isLt N_0
  funext j
  have hj0 : (j 0).val < 512 := (j 0).isLt
  have hj1 : (j 1).val < 64 := (j 1).isLt
  have hr : t.val * 512 + (j 0).val < 8192 := by omega
  show k0_pay1 (F := Ideal) (iblk m c 0 t) (iblk m c 1 t) (iblk m c 2 t) j
    = result m c (((cfg0.win 3).blk t).view.emb j)
  have hemb : ((cfg0.win 3).blk t).view.emb j = ix2 ⟨t.val * 512 + (j 0).val, hr⟩ ⟨(j 1).val, hj1⟩ :=
    funext fun a => Fin.ext (by
      match a with
      | ⟨0, _⟩ => show win0_3.index t (0 : Fin 2) * 512 + 1 * (j 0).val = t.val * 512 + (j 0).val; rw [e0]; omega
      | ⟨1, _⟩ => show win0_3.index t (1 : Fin 2) * 64 + 1 * (j 1).val = (j 1).val; rw [e1]; omega)
  rw [hemb]
  exact body_eq_gate (m ((c : Thread nD τ).loc main_arg0)) (m ((c : Thread nD τ).loc main_arg1))
    (m ((c : Thread nD τ).loc main_arg2)) (iblk m c 0 t) (iblk m c 1 t) (iblk m c 2 t) t.val
    (fun p k h => xblk_apply m c t p k h) (wblk_apply m c t) (bblk_apply m c t) j hr

/-- An index of the result array is in point `t`'s block iff each coordinate is in the block's range on its axis. -/
theorem mem_blk (t : Fin cfg0.N) (i : S8192x64.Idx) :
    i ∈ ((cfg0.win 3).blk t).view.set ↔ ∀ a : Fin 2, win0_3.index t a * S512x64.size a ≤ (i a).val
      ∧ (i a).val < win0_3.index t a * S512x64.size a + S512x64.size a := by
  show i ∈ ((View.whole main_v6).slice (win0_3.rect t)).set ↔ _
  rw [View.set_slice_whole, Rect.mem_set_unit]
  exact Iff.rfl

/-- Every (token, unit) is in some point's block: token `r` in block `r / 512`. -/
theorem cover (i : S8192x64.Idx) :
    ∃ t : Fin cfg0.N, (cfg0.win 3).flush t = true ∧ i ∈ ((cfg0.win 3).blk t).view.set := by
  have hi0 : (i 0).val < 8192 := (i 0).isLt
  have hi1 : (i 1).val < 64 := (i 1).isLt
  have hlt : (i 0).val / 512 < cfg0.N := by rw [show cfg0.N = 16 from N_0]; omega
  obtain ⟨-, -, -, -, -, -, e0, e1⟩ := idx_facts ⟨(i 0).val / 512, hlt⟩
  refine ⟨⟨(i 0).val / 512, hlt⟩, flush0_3 _, ?_⟩
  rw [mem_blk]
  intro a
  match a with
  | ⟨0, _⟩ =>
    show win0_3.index ⟨(i 0).val / 512, hlt⟩ (0 : Fin 2) * 512 ≤ (i 0).val
      ∧ (i 0).val < win0_3.index ⟨(i 0).val / 512, hlt⟩ (0 : Fin 2) * 512 + 512
    rw [e0]
    show (i 0).val / 512 * 512 ≤ (i 0).val ∧ (i 0).val < (i 0).val / 512 * 512 + 512
    omega
  | ⟨1, _⟩ =>
    show win0_3.index ⟨(i 0).val / 512, hlt⟩ (1 : Fin 2) * 64 ≤ (i 1).val
      ∧ (i 1).val < win0_3.index ⟨(i 0).val / 512, hlt⟩ (1 : Fin 2) * 64 + 64
    rw [e1]
    omega

/-- So the result array ends holding the gate array. -/
theorem final (c : Dev nD) : (dats m 0 c).arrAt 3 cfg0.N = result m c :=
  (dats m 0 c).arrAt_eq_of_cover 3 (result m c) (fun t _ => flushed_eq m c t) cover

/-- The kernel's run, read: the result array at the gate of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Router

end
-- ==== Proof.lean ====
/-
  The router's gate, `sigmoid ((x · w + b) / temperature)`, computed two ways.
  The reference forms the logit `∑ k, x[r, k] · w[k, u] + b[u]`, divides it by the temperature (the constant one half
  once rounded) and applies the logistic function written with `exp`. The kernel scales the weights and the bias by the
  constant one, tiles the 8192 tokens into sixteen blocks of 512 rows, and per block computes
  `1/2 · tanh (x · w + b) + 1/2` on the matrix unit. On the extended reals these are one function of the three
  arguments, entry by entry:
    * a product with one is the factor itself, and a change of float format is the identity (Staged.lean);
    * the matrix unit's product into a zero accumulator and the host's product are the same sum over the 4096
      features (BodyGate.lean, RefGate.lean);
    * `1/2 · tanh z + 1/2 = 1 / (1 + exp (-(z / (1/2))))` for every extended real `z`, the infinities included
      (Logistic.lean), so the inputs' finiteness is never used;
    * the sixteen row blocks tile the result array (Rows.lean).
  Each program's run leaves its argument arrays unchanged; the idealized kernel is the kernel's own text read on the
  extended reals, so nothing is owed for the idealization.
-/
import proofs.«165291_g32770600468481_cont_8to1_b_1364_22_alg».proof.Defs
import proofs.«165291_g32770600468481_cont_8to1_b_1364_22_alg».proof.Proof.Gen.Kernel
import proofs.«165291_g32770600468481_cont_8to1_b_1364_22_alg».proof.Proof.Gen.Kernel.Frame
import proofs.«165291_g32770600468481_cont_8to1_b_1364_22_alg».proof.Proof.Gen.KernelIdeal
import proofs.«165291_g32770600468481_cont_8to1_b_1364_22_alg».proof.Proof.Gen.KernelIdeal.Frame
import proofs.«165291_g32770600468481_cont_8to1_b_1364_22_alg».proof.Proof.Gen.KernelIdeal.Value
import proofs.«165291_g32770600468481_cont_8to1_b_1364_22_alg».proof.Proof.Gen.ReferenceIdeal
import proofs.«165291_g32770600468481_cont_8to1_b_1364_22_alg».proof.Proof.Gen.ReferenceIdeal.Run
import proofs.«165291_g32770600468481_cont_8to1_b_1364_22_alg».proof.Proof.Gen.ReferenceIdeal.Read
import proofs.«165291_g32770600468481_cont_8to1_b_1364_22_alg».proof.Proof.Gen.Pre_finite_inputs
import proofs.«165291_g32770600468481_cont_8to1_b_1364_22_alg».proof.Proof.RefGate
import proofs.«165291_g32770600468481_cont_8to1_b_1364_22_alg».proof.Proof.Rows
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the gate array of the arguments: the kernel's result array by its sixteen row blocks, the
    reference's by its operations read at an index and the scalar law between the logistic function and the
    hyperbolic tangent. -/
theorem algebraic : Cert.algebraic_KernelIdeal_ReferenceIdeal := by
  intro m ρ m' ρ' _ hagree
  refine ⟨fun c => Cert.Router.result m c, Cert.Router.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.Router.ref_eq_gate, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
